-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x8192 : Shape := ⟨2, ![2048, 8192]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S8192x2048 .f32) (main_arg1 : FVec F S8192x2048 .f32) (main_arg2 : FVec F S8192x2048 .f32) (main_arg3 : FVec F S2048x8192 .f32) (main_arg4 : FVec F S8192 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_v13 main_v16
-- ==== Kernel.lean ====
abbrev S8192x2048 : Shape := ⟨2, ![8192, 2048]⟩
abbrev S2048x8192 : Shape := ⟨2, ![2048, 8192]⟩
abbrev S8192 : Shape := ⟨1, ![8192]⟩
abbrev S1x8192 : Shape := ⟨2, ![1, 8192]⟩
abbrev S256x2048 : Shape := ⟨2, ![256, 2048]⟩
abbrev S256x8192 : Shape := ⟨2, ![256, 8192]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S8192, .f32⟩
  | .hbm, ⟨5, _⟩ => ⟨S2048x8192, .bf16⟩
  | .hbm, ⟨6, _⟩ => ⟨S1x8192, .f32⟩
  | .hbm, ⟨7, _⟩ => ⟨S8192x2048, .f32⟩
  | .hbm, ⟨8, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2048x8192, .bf16⟩
  | .local _ .vmem, ⟨5, _⟩ => ⟨S1x8192, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S8192_S1x8192 : S8192.ShapeCasts S1x8192
  inb_S256x2048_S256x2048_0_0 : ∀ a, (![0, 0] : Fin 2 → Nat) a + S256x2048.size a ≤ S256x2048.size a
  h_S256x2048 : 0 < S256x2048.numel
  inb_S2048x8192_S2048x8192_0_0 : ∀ a, (![0, 0] : Fin 2 → Nat) a + S2048x8192.size a ≤ S2048x8192.size a
  h_S2048x8192 : 0 < S2048x8192.numel
  shapeCasts_S2048x8192_S2048x8192 : S2048x8192.ShapeCasts S2048x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S256x8192 : S1x8192.Broadcasts S256x8192
  slices_S256x8192_o0_0_S256x2048 : S256x8192.Slices ![0, 0] S256x2048
  slices_S256x8192_o0_2048_S256x2048 : S256x8192.Slices ![0, 2048] S256x2048
  slices_S256x8192_o0_4096_S256x2048 : S256x8192.Slices ![0, 4096] S256x2048
  slices_S256x8192_o0_6144_S256x2048 : S256x8192.Slices ![0, 6144] S256x2048
  dot_S256x2048_S2048x8192_S256x8192_1_0_0_1_n_n_wf : DotDims.WF S256x2048 S2048x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x8192.size a ≤ S2048x8192.size a
  hwx0_2 : ∀ i : grid0.Coords, EltTy.bits .bf16 = 32 ∨ (Rect.block (s := S2048x8192) S2048x8192.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S8192x2048.size a
  hwx0_4 : ∀ i : grid0.Coords, EltTy.bits .f32 = 32 ∨ (Rect.block (s := S8192x2048) S256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S8192x2048.size a
  hwx0_5 : ∀ i : grid0.Coords, EltTy.bits .f32 = 32 ∨ (Rect.block (s := S8192x2048) S256x2048.size (cc0_transform_5 i) (hinb0_5 i)).WholeWords (EltTy.packing .f32)

variable [Facts₀]

def dot_S256x2048_S2048x8192_S256x8192_1_0_0_1_n_n : DotDims S256x2048 S2048x8192 S256x8192 where
  lhsContracting := [1]
  rhsContracting := [0]
  lhsNonContracting := [0]
  rhsNonContracting := [1]
  lhsBatch := []
  rhsBatch := []
  wf := dot_S256x2048_S2048x8192_S256x8192_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S256x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x8192 : Shape := ⟨2, ![2048, 8192]⟩
abbrev S8192 : Shape := ⟨1, ![8192]⟩
abbrev S8192x8192 : Shape := ⟨2, ![8192, 8192]⟩
abbrev S1x8192 : Shape := ⟨2, ![1, 8192]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S8192, .f32⟩
  | .hbm, ⟨5, _⟩ => ⟨S8192x8192, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  dot_S8192x2048_S2048x8192_S8192x8192_1_0_0_1_n_n_wf : DotDims.WF S8192x2048 S2048x8192 S8192x8192 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf

class Facts : Prop extends Facts₀ where

variable [Facts]
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmul2.lean ====
/-
  A matrix product of a `[M, K]` array by a `[K, N]` array, contracted over the one shared axis, read at `(p, q)`:
  the sum over `k` of the left operand at `(p, k)` times the right operand at `(k, q)`.
-/
import Idealize.ShloMosaic.PureOps.Ideal
import Idealize.ShloMosaic.PureOps.Ideal.Laws
import Idealize.ShloMosaic.Lib.ValueIdx
import proofs.«135184_j21818433864264_2_alg».proof.Proof.LibDotSum

noncomputable section

open scoped BigOperators

namespace Idealize.ShloMosaic.LibMatmul2

open Idealize.ShloMosaic Idealize.ShloMosaic.ValueIdx

/-- The contraction sum of a `[M, K] × [K, N]` product at `(p, q)`, over the contracted coordinate.  The two facts
    about the free axes (`hl0`, `hr1`: the left operand's row is the result's row, the right operand's column the result's
    column) are read off a program's literal dimension numbers. -/
theorem contr_sum {M K N : Nat} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (x : (⟨2, ![M, K]⟩ : Shape).Idx → EReal) (y : (⟨2, ![K, N]⟩ : Shape).Idx → EReal) (p : Fin M) (q : Fin N) :
    ∑ c : D.contr.Idx, x (D.lhsIdx (ix2 p q) c) * y (D.rhsIdx (ix2 p q) c) = ∑ k : Fin K, x (ix2 p k) * y (ix2 k q) := by
  refine LibDotSum.sum_single D K hr hs x y (ix2 p q) (fun k => x (ix2 p k)) (fun k => y (ix2 k q)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact LibDotSum.rhs_contr_val D K hr hs hrc _ k
    | ⟨1, _⟩ => exact hr1 _ _

/-- A kernel's matrix product into a zero accumulator, at `(p, q)`. -/
theorem matmul_zero_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) :=
  (Ideal.matmul_constant_zero_apply D prec x y (ix2 p q)).trans (contr_sum D hr hs hlc hrc hl0 hr1 x y p q)

/-- The host's `dot_general` of the same shape, at `(p, q)`. -/
theorem dotGeneral_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  simp only [Host.dotGeneral]
  rw [Ideal.dotGeneral_apply]
  exact contr_sum D hr hs hlc hrc hl0 hr1 x y p q

end Idealize.ShloMosaic.LibMatmul2

end
-- ==== Proof.KernelGates.lean ====
/-
  The kernel body's gate pre-activations, read at an index.

  At a grid point the body multiplies its 256 rows of the input by the whole weight matrix (accumulating into zero),
  and adds the bias row broadcast over the 256 rows.  A change of float format is the identity on the extended reals and
  a shape cast to the same shape moves nothing, so the entry at `(p, j)` is the sum over `k` of the input block at
  `(p, k)` times the weights at `(k, j)`, plus the bias row at `(0, j)`.
-/
import proofs.«135184_j21818433864264_2_alg».proof.Proof.Gen.KernelIdeal.Skeleton
import proofs.«135184_j21818433864264_2_alg».proof.Proof.LibMatmul2
import Idealize.ShloMosaic.Lib.Pipeline.Value

noncomputable section

open scoped BigOperators

namespace Cert.KernelIdeal.Gates

open Cert.KernelIdeal Cert.KernelIdeal.Gen
open Idealize.ShloMosaic Idealize.ShloMosaic.ValueIdx

/-- The body's one matrix product: `[256, 2048] × [2048, 8192]`, contracting the shared axis. -/
abbrev D : DotDims S256x2048 S2048x8192 S256x8192 := dot_S256x2048_S2048x8192_S256x8192_1_0_0_1_n_n

/-- The left operand's row is the result's row. -/
theorem lhs_row (j : S256x8192.Idx) (q : D.contr.Idx) : (D.lhsIdx j q 0).val = (j 0).val := by
  unfold DotDims.lhsIdx
  rw [dif_neg (show ¬(0 : Fin S256x2048.rank) ∈ D.lhsBatch by decide),
    dif_pos (show (0 : Fin S256x2048.rank) ∈ D.lhsNonContracting by decide)]
  rfl

/-- The right operand's column is the result's column. -/
theorem rhs_col (j : S256x8192.Idx) (q : D.contr.Idx) : (D.rhsIdx j q 1).val = (j 1).val := by
  unfold DotDims.rhsIdx
  rw [dif_neg (show ¬(1 : Fin S2048x8192.rank) ∈ D.rhsBatch by decide),
    dif_pos (show (1 : Fin S2048x8192.rank) ∈ D.rhsNonContracting by decide)]
  rfl

/-- The gate pre-activations of a block, at row `p` of the block and gate column `j`. -/
theorem gates_apply (P0 : Vec Ideal S256x2048 .f32) (P1 : Vec Ideal S2048x8192 .bf16) (P2 : Vec Ideal S1x8192 .f32)
    (p : Fin 256) (j : Fin 8192) :
    k0_pay1 (F := Ideal) P0 P1 P2 (ix2 p j)
      = (∑ k : Fin 2048, P0 (ix2 p k) * P1 (ix2 k j)) + P2 (ix2 (0 : Fin 1) j) := by
  have hm : matmul (F := Ideal) D none (truncf .bf16 P0 bitsLt_bf16_f32)
        (shapeCast S2048x8192 P1 shapeCasts_S2048x8192_S2048x8192 : FVec Ideal S2048x8192 .bf16)
        (constant S256x8192 .f32 0x00000000#32) (ix2 p j)
      = ∑ k : Fin 2048, P0 (ix2 p k) * P1 (ix2 k j) := by
    rw [shapeCast_self]
    exact LibMatmul2.matmul_zero_apply D rfl rfl rfl rfl lhs_row rhs_col none (truncf .bf16 P0 bitsLt_bf16_f32) P1 p j
  have hb : broadcastTo S256x8192 (shapeCast S1x8192 P2 shapeCasts_S1x8192_S1x8192 : FVec Ideal S1x8192 .f32)
        broadcasts_S1x8192_S256x8192 (ix2 p j)
      = P2 (ix2 (0 : Fin 1) j) := by
    rw [shapeCast_self]
    exact broadcastTo_apply P2 broadcasts_S1x8192_S256x8192 (ix2 p j) (ix2 (0 : Fin 1) j) (fun a => by
      match a with
      | ⟨0, _⟩ => show (0 : Nat) = if (1 : Nat) = 1 then 0 else _; rw [if_pos rfl]
      | ⟨1, _⟩ => show j.val = if (8192 : Nat) = 1 then 0 else _; rw [if_neg (by decide)]; rfl)
  unfold k0_pay1
  exact congrArg₂ (fun a b : EReal => a + b) hm hb

end Cert.KernelIdeal.Gates

end
-- ==== Proof.LstmSpec.lean ====
/-
  The LSTM cell step as ONE function of the argument arrays, index by index, on the extended reals.

  With `x : [8192, 2048]` the input, `cell : [8192, 2048]` the previous cell state, `w : [2048, 8192]` the fused
  gate weights and `b : [8192]` the fused bias, the pre-activation of gate column `j` at batch row `r` is
  `pre x w b r j = (∑ k, x (r, k) * w (k, j)) + b j`.  The 8192 gate columns are four bands of 2048: forget, input,
  output and state, in that order.  At `(r, q)`

    newCell   = σ (pre r q) * cell (r, q) + σ (pre r (2048 + q)) * σ (pre r (6144 + q))
    newHidden = σ (pre r (4096 + q)) * tanh newCell

  where `σ z = 1 / (1 + exp (-z))` is the logistic function (`Ideal.logistic`, with its values at the infinities).
  Nothing here needs the entries to be finite: both programs compute these very expressions, operation by operation,
  in this order.
-/
import Idealize.ShloMosaic.PureOps.Ideal
import Idealize.ShloMosaic.Lib.ValueIdx
import Idealize.ShloMosaic.Lib.IdealHost

noncomputable section

open scoped BigOperators

namespace Cert.LstmSpec

open Idealize.ShloMosaic Idealize.ShloMosaic.ValueIdx

/-- The batch-by-feature shape of the input, the cell state and both results. -/
abbrev SX : Shape := ⟨2, ![8192, 2048]⟩
/-- The fused gate weights' shape. -/
abbrev SW : Shape := ⟨2, ![2048, 8192]⟩
/-- The fused bias's shape. -/
abbrev SB : Shape := ⟨1, ![8192]⟩

/-- Column `q` of the forget band (columns 0 … 2047). -/
abbrev colF (q : Fin 2048) : Fin 8192 := ⟨q.val, by have := q.isLt; omega⟩
/-- Column `q` of the input band (columns 2048 … 4095). -/
abbrev colI (q : Fin 2048) : Fin 8192 := ⟨2048 + q.val, by have := q.isLt; omega⟩
/-- Column `q` of the output band (columns 4096 … 6143). -/
abbrev colO (q : Fin 2048) : Fin 8192 := ⟨4096 + q.val, by have := q.isLt; omega⟩
/-- Column `q` of the state band (columns 6144 … 8191). -/
abbrev colS (q : Fin 2048) : Fin 8192 := ⟨6144 + q.val, by have := q.isLt; omega⟩

/-- The pre-activation of gate column `j` at batch row `r`: row `r` of `x` against column `j` of `w`, plus the bias. -/
def pre (x : SX.Idx → EReal) (w : SW.Idx → EReal) (b : SB.Idx → EReal) (r : Fin 8192) (j : Fin 8192) : EReal :=
  (∑ k : Fin 2048, x (ix2 r k) * w (ix2 k j)) + b (ix1 j)

/-- The new cell state. -/
def newCell (x cell : SX.Idx → EReal) (w : SW.Idx → EReal) (b : SB.Idx → EReal) : SX.Idx → EReal := fun i =>
  Ideal.logistic (pre x w b (i 0) (colF (i 1))) * cell i
    + Ideal.logistic (pre x w b (i 0) (colI (i 1))) * Ideal.logistic (pre x w b (i 0) (colS (i 1)))

/-- The new hidden state. -/
def newHidden (x cell : SX.Idx → EReal) (w : SW.Idx → EReal) (b : SB.Idx → EReal) : SX.Idx → EReal := fun i =>
  Ideal.logistic (pre x w b (i 0) (colO (i 1))) * Ideal.tanh (newCell x cell w b i)

/-- The logistic function spelled out with the float literal `1.0` — a quotient of one by one plus the exponential
    of the negation — is the logistic function. -/
theorem logistic_spelled (z : EReal) :
    Ideal.div (Ideal.ofBits .f32 0x3F800000#32) (Ideal.ofBits .f32 0x3F800000#32 + Ideal.exp (-z)) = Ideal.logistic z := by
  rw [Ideal.ofBits_one_f32]; rfl

end Cert.LstmSpec

end
-- ==== Proof.KernelBlocks.lean ====
/-
  The kernel's two result arrays after the run are the LSTM cell step of the specification.

  The grid has 32 points; point `t` works on batch rows `256 t … 256 t + 255`.  It reads that band of the input and of
  the cell state, the whole weight matrix and the whole bias row, and writes that band of both results.  So an entry
  of a result block is the specification's expression at the array index under it: the pre-activations it reads are
  sums over a row of the input band, which is a row of the input, against a column of the weights; the cell entry it
  reads is the array's at that index.  The weight matrix the kernel sees is the argument after a change of float format,
  which is the identity on the extended reals, and the bias row is the argument re-laid as one row.  The 32 bands tile
  the arrays, so each result array is the specification's function everywhere.
-/
import proofs.«135184_j21818433864264_2_alg».proof.Proof.Gen.KernelIdeal.Value
import proofs.«135184_j21818433864264_2_alg».proof.Proof.KernelGates
import proofs.«135184_j21818433864264_2_alg».proof.Proof.LstmSpec
import Idealize.ShloMosaic.Lib.Pipeline.Value
import Idealize.ShloMosaic.Lib.StableHlo.Run

noncomputable section

open scoped BigOperators

namespace Cert.KernelIdeal.CellValue

open Cert.KernelIdeal Cert.KernelIdeal.Gen Cert.LstmSpec
open Idealize.ShloMosaic Idealize.ShloMosaic.TcCoe Idealize.ShloMosaic.ValueIdx Idealize.SL.Sem
open Idealize.ShloMosaic.Pipeline (Dat)

/-! ## One entry of a block, from the blocks the body loads -/

/-- Where the block entry `(p, q)` reads the forget band. -/
theorem ixF (p : Fin 256) (q : Fin 2048) : Value.ix5_0 (ix2 p q) = ix2 p (colF q) := funext fun a => by
  match a with
  | ⟨0, _⟩ => rfl
  | ⟨1, _⟩ => rfl

/-- Where it reads the input band. -/
theorem ixI (p : Fin 256) (q : Fin 2048) : Value.ix5_2 (ix2 p q) = ix2 p (colI q) := funext fun a => by
  match a with
  | ⟨0, _⟩ => rfl
  | ⟨1, _⟩ => exact Fin.ext (Nat.add_comm _ _)

/-- Where it reads the state band. -/
theorem ixS (p : Fin 256) (q : Fin 2048) : Value.ix5_3 (ix2 p q) = ix2 p (colS q) := funext fun a => by
  match a with
  | ⟨0, _⟩ => rfl
  | ⟨1, _⟩ => exact Fin.ext (Nat.add_comm _ _)

/-- Where it reads the output band. -/
theorem ixO (p : Fin 256) (q : Fin 2048) : Value.ix4_0 (ix2 p q) = ix2 p (colO q) := funext fun a => by
  match a with
  | ⟨0, _⟩ => rfl
  | ⟨1, _⟩ => exact Fin.ext (Nat.add_comm _ _)

/-- Where it reads the cell block: at itself. -/
theorem ixC (p : Fin 256) (q : Fin 2048) : Value.ix5_1 (ix2 p q) = ix2 p q := funext fun a => by
  match a with
  | ⟨0, _⟩ => rfl
  | ⟨1, _⟩ => rfl

section point

variable (X C : SX.Idx → EReal) (W : SW.Idx → EReal) (B : SB.Idx → EReal)
  (P0 P3 : Vec Ideal S256x2048 .f32) (P1 : Vec Ideal S2048x8192 .bf16) (P2 : Vec Ideal S1x8192 .f32)

/-- A block's pre-activation at row `p` is the arrays' at row `r`, when the input block's row `p` is the input's row
    `r`, the weight block is the weights and the bias block's one row is the bias. -/
theorem pre_point (p : Fin 256) (r : Fin 8192)
    (hX : ∀ k : Fin 2048, P0 (ix2 p k) = X (ix2 r k))
    (hW : ∀ (k : Fin 2048) (j : Fin 8192), P1 (ix2 k j) = W (ix2 k j))
    (hB : ∀ j : Fin 8192, P2 (ix2 (0 : Fin 1) j) = B (ix1 j)) (j : Fin 8192) :
    k0_pay1 (F := Ideal) P0 P1 P2 (ix2 p j) = pre X W B r j := by
  rw [Gates.gates_apply]
  unfold pre
  rw [hB j]
  refine congrArg (· + B (ix1 j)) (Finset.sum_congr rfl fun k _ => ?_)
  rw [hX k, hW k j]

/-- The entry `(p, q)` of the new-cell block is the new cell state at the array index `(r, q)` under it. -/
theorem cell_point (p : Fin 256) (q : Fin 2048) (r : Fin 8192)
    (hX : ∀ k : Fin 2048, P0 (ix2 p k) = X (ix2 r k))
    (hW : ∀ (k : Fin 2048) (j : Fin 8192), P1 (ix2 k j) = W (ix2 k j))
    (hB : ∀ j : Fin 8192, P2 (ix2 (0 : Fin 1) j) = B (ix1 j))
    (hC : P3 (ix2 p q) = C (ix2 r q)) :
    Value.E5 (F := Ideal) P0 P1 P2 P3 (ix2 p q) = newCell X C W B (ix2 r q) := by
  have eF := pre_point X W B P0 P1 P2 p r hX hW hB (colF q)
  have eI := pre_point X W B P0 P1 P2 p r hX hW hB (colI q)
  have eS := pre_point X W B P0 P1 P2 p r hX hW hB (colS q)
  show (Ideal.logistic (k0_pay1 (F := Ideal) P0 P1 P2 (Value.ix5_0 (ix2 p q))) * P3 (Value.ix5_1 (ix2 p q)))
      + (Ideal.logistic (k0_pay1 (F := Ideal) P0 P1 P2 (Value.ix5_2 (ix2 p q)))
          * Ideal.logistic (k0_pay1 (F := Ideal) P0 P1 P2 (Value.ix5_3 (ix2 p q)))) = _
  rw [ixF p q, ixI p q, ixS p q, ixC p q, eF, eI, eS, hC]
  rfl

/-- The entry `(p, q)` of the new-hidden block is the new hidden state at the array index `(r, q)` under it. -/
theorem hidden_point (p : Fin 256) (q : Fin 2048) (r : Fin 8192)
    (hX : ∀ k : Fin 2048, P0 (ix2 p k) = X (ix2 r k))
    (hW : ∀ (k : Fin 2048) (j : Fin 8192), P1 (ix2 k j) = W (ix2 k j))
    (hB : ∀ j : Fin 8192, P2 (ix2 (0 : Fin 1) j) = B (ix1 j))
    (hC : P3 (ix2 p q) = C (ix2 r q)) :
    Value.E4 (F := Ideal) P0 P1 P2 P3 (ix2 p q) = newHidden X C W B (ix2 r q) := by
  have eO := pre_point X W B P0 P1 P2 p r hX hW hB (colO q)
  have eC := cell_point X C W B P0 P3 P1 P2 p q r hX hW hB hC
  show Ideal.logistic (k0_pay1 (F := Ideal) P0 P1 P2 (Value.ix4_0 (ix2 p q)))
      * Ideal.tanh (Value.E5 (F := Ideal) P0 P1 P2 P3 (ix2 p q)) = _
  rw [ixO p q, eO, eC]
  rfl

end point

/-! ## The arrays the windows stage -/

variable (m : (ℓ : Loc nD τ sig) → Buf (Elt Ideal) ℓ) (ρ : Dev nD → PrngReg)

/-- The new cell state of the argument arrays as launched. -/
abbrev cellOf (c : Dev nD) : SX.Idx → EReal :=
  newCell (m ((c : Thread nD τ).loc main_arg0)) (m ((c : Thread nD τ).loc main_arg2))
    (m ((c : Thread nD τ).loc main_arg3)) (m ((c : Thread nD τ).loc main_arg4))

/-- The new hidden state of the argument arrays as launched. -/
abbrev hiddenOf (c : Dev nD) : SX.Idx → EReal :=
  newHidden (m ((c : Thread nD τ).loc main_arg0)) (m ((c : Thread nD τ).loc main_arg2))
    (m ((c : Thread nD τ).loc main_arg3)) (m ((c : Thread nD τ).loc main_arg4))

/-- The weight matrix the region finds is the argument: a change of float format is the identity here. -/
theorem weights_eq (c : Dev nD) :
    (V m c main_v0 : S2048x8192.Idx → EReal) = m ((c : Thread nD τ).loc main_arg3) := by
  dsimp only [Gen.V, Gen.hostOps0]; after_results; rfl

/-- The bias row the region finds, at `(0, j)`, is the bias argument at `j`: the row is the argument re-laid. -/
theorem bias_row (c : Dev nD) (j : Fin 8192) :
    (V m c main_v1 : S1x8192.Idx → EReal) (ix2 (0 : Fin 1) j) = m ((c : Thread nD τ).loc main_arg4) (ix1 j) := by
  have e : (V m c main_v1 : S1x8192.Idx → EReal)
      = shapeCast S1x8192 (m ((c : Thread nD τ).loc main_arg4) : S8192.Idx → EReal) shapeCasts_S8192_S1x8192 := by
    dsimp only [Gen.V, Gen.hostOps0]; after_results; rfl
  rw [e]
  exact shapeCast_apply _ _ (ix2 (0 : Fin 1) j) (ix1 j) (by
    rw [Shape.rowMajor_val_one, Shape.rowMajor_val_two]
    show j.val = 0 * 8192 + j.val
    omega)

/-! ## The index maps over the grid -/

theorem hz : (![0, 0] : Fin 2 → Nat) = fun _ => 0 := funext fun a => by fin_cases a <;> rfl

/-- The printed index maps, decided over the 32 points: the input, the cell state and both results move together
    along the rows and stay at column block 0; the weights and the bias stay at block `(0, 0)`. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = win0_5.index t (0 : Fin 2) ∧ win0_4.index t (1 : Fin 2) = 0
    ∧ win0_5.index t (1 : Fin 2) = 0 ∧ win0_5.index t (0 : Fin 2) ≤ 31 :=
  (by decide +kernel : ∀ t : Fin grid0.N, _)

/-- Every band of 256 rows is some point's. -/
theorem idx_onto : ∀ q : Fin 32, ∃ t : Fin cfg0.N, win0_5.index t = ![q.val, 0] :=
  (by decide +kernel : ∀ q : Fin 32, ∃ t : Fin grid0.N, win0_5.index t = ![q.val, 0])

/-! ## What a point writes back -/

section flushed

variable (c : Dev nD) (t : Fin cfg0.N)

/-- What the entry `(p, q)` of a result block needs of the blocks the body loaded at point `t`, against the array index
    `(r, q)` whose row `r` is row `p` of the point's band. -/
theorem loads_at (p : Fin 256) (q : Fin 2048) (r : Fin 8192) (hr : r.val = win0_5.index t (0 : Fin 2) * 256 + 1 * p.val) :
    (∀ k : Fin 2048, iblk m c 0 t (ix2 p k) = m ((c : Thread nD τ).loc main_arg0) (ix2 r k))
    ∧ (∀ (k : Fin 2048) (j : Fin 8192), iblk m c 2 t (ix2 k j) = m ((c : Thread nD τ).loc main_arg3) (ix2 k j))
    ∧ (∀ j : Fin 8192, iblk m c 3 t (ix2 (0 : Fin 1) j) = m ((c : Thread nD τ).loc main_arg4) (ix1 j))
    ∧ iblk m c 1 t (ix2 p q) = m ((c : Thread nD τ).loc main_arg2) (ix2 r q) := by
  obtain ⟨e00, e01, e10, e11, e20, e21, e30, e31, e40, e41, e51, _⟩ := idx_facts t
  refine ⟨fun k => ?_, fun k j => ?_, fun j => ?_, ?_⟩
  · show V m c main_arg0 (((cfg0.win 0).blk t).view.emb (ix2 p k)) = _
    rw [V_main_arg0]
    refine congrArg _ (funext fun a => Fin.ext ?_)
    match a with
    | ⟨0, _⟩ => show win0_0.index t (0 : Fin 2) * 256 + 1 * p.val = r.val; omega
    | ⟨1, _⟩ => show win0_0.index t (1 : Fin 2) * 2048 + 1 * k.val = k.val; omega
  · show V m c main_v0 (((cfg0.win 2).blk t).view.emb (ix2 k j)) = _
    rw [← weights_eq m c]
    refine congrArg _ (funext fun a => Fin.ext ?_)
    match a with
    | ⟨0, _⟩ => show win0_2.index t (0 : Fin 2) * 2048 + 1 * k.val = k.val; omega
    | ⟨1, _⟩ => show win0_2.index t (1 : Fin 2) * 8192 + 1 * j.val = j.val; omega
  · show V m c main_v1 (((cfg0.win 3).blk t).view.emb (ix2 (0 : Fin 1) j)) = _
    rw [← bias_row m c j]
    refine congrArg _ (funext fun a => Fin.ext ?_)
    match a with
    | ⟨0, _⟩ => show win0_3.index t (0 : Fin 2) * 1 + 1 * 0 = 0; omega
    | ⟨1, _⟩ => show win0_3.index t (1 : Fin 2) * 8192 + 1 * j.val = j.val; omega
  · show V m c main_arg2 (((cfg0.win 1).blk t).view.emb (ix2 p q)) = _
    rw [V_main_arg2]
    refine congrArg _ (funext fun a => Fin.ext ?_)
    match a with
    | ⟨0, _⟩ => show win0_1.index t (0 : Fin 2) * 256 + 1 * p.val = r.val; omega
    | ⟨1, _⟩ => show win0_1.index t (1 : Fin 2) * 2048 + 1 * q.val = q.val; omega

/-- What point `t` writes back to the new-cell array is block `t` of the new cell state. -/
theorem flushed_cell :
    (dats m 0 c).flushed 5 t = ((cfg0.win 5).blk t).view.read (Elt Ideal) (cellOf m c) := by
  rw [Value.flushed5]
  unfold out0_5
  simp only [View.ld_unit_zero (S := S256x2048) hz, View.ld_unit_zero (S := S2048x8192) hz, View.ld_unit_zero (S := S1x8192) hz]
  obtain ⟨e00, e01, e10, e11, e20, e21, e30, e31, e40, e41, e51, _⟩ := idx_facts t
  funext y
  obtain ⟨p, q, rfl⟩ : ∃ (p : Fin 256) (q : Fin 2048), y = ix2 p q := ⟨y 0, y 1, eq_ix2 y⟩
  obtain ⟨r, hemb, hr⟩ : ∃ r : Fin 8192, ((cfg0.win 5).blk t).view.emb (ix2 p q) = ix2 r q
      ∧ r.val = win0_5.index t (0 : Fin 2) * 256 + 1 * p.val :=
    ⟨((cfg0.win 5).blk t).view.emb (ix2 p q) 0, funext fun a => Fin.ext (by
      match a with
      | ⟨0, _⟩ => rfl
      | ⟨1, _⟩ => show win0_5.index t (1 : Fin 2) * 2048 + 1 * q.val = q.val; omega), rfl⟩
  obtain ⟨hX, hW, hB, hC⟩ := loads_at m c t p q r hr
  refine (Value.canon5_eq (F := Ideal) (iblk m c 0 t) (iblk m c 2 t) (iblk m c 3 t) (iblk m c 1 t) (ix2 p q)).trans ?_
  refine (cell_point _ _ _ _ (iblk m c 0 t) (iblk m c 1 t) (iblk m c 2 t) (iblk m c 3 t) p q r hX hW hB hC).trans ?_
  exact congrArg (cellOf m c) hemb.symm

/-- What point `t` writes back to the new-hidden array is block `t` of the new hidden state. -/
theorem flushed_hidden :
    (dats m 0 c).flushed 4 t = ((cfg0.win 4).blk t).view.read (Elt Ideal) (hiddenOf m c) := by
  rw [Value.flushed4]
  unfold out0_4
  simp only [View.ld_unit_zero (S := S256x2048) hz, View.ld_unit_zero (S := S2048x8192) hz, View.ld_unit_zero (S := S1x8192) hz]
  obtain ⟨e00, e01, e10, e11, e20, e21, e30, e31, e40, e41, e51, _⟩ := idx_facts t
  funext y
  obtain ⟨p, q, rfl⟩ : ∃ (p : Fin 256) (q : Fin 2048), y = ix2 p q := ⟨y 0, y 1, eq_ix2 y⟩
  obtain ⟨r, hemb, hr⟩ : ∃ r : Fin 8192, ((cfg0.win 4).blk t).view.emb (ix2 p q) = ix2 r q
      ∧ r.val = win0_5.index t (0 : Fin 2) * 256 + 1 * p.val :=
    ⟨((cfg0.win 4).blk t).view.emb (ix2 p q) 0, funext fun a => Fin.ext (by
      match a with
      | ⟨0, _⟩ => rfl
      | ⟨1, _⟩ => show win0_4.index t (1 : Fin 2) * 2048 + 1 * q.val = q.val; omega),
      (show win0_4.index t (0 : Fin 2) * 256 + 1 * p.val = win0_5.index t (0 : Fin 2) * 256 + 1 * p.val by omega)⟩
  obtain ⟨hX, hW, hB, hC⟩ := loads_at m c t p q r hr
  refine (Value.canon4_eq (F := Ideal) (iblk m c 0 t) (iblk m c 2 t) (iblk m c 3 t) (iblk m c 1 t) (ix2 p q)).trans ?_
  refine (hidden_point _ _ _ _ (iblk m c 0 t) (iblk m c 1 t) (iblk m c 2 t) (iblk m c 3 t) p q r hX hW hB hC).trans ?_
  exact congrArg (hiddenOf m c) hemb.symm

end flushed

/-! ## The bands tile the arrays -/

/-- An index is in point `t`'s new-cell block iff each coordinate is in the block's range on its axis. -/
theorem mem_blk_cell (t : Fin cfg0.N) (i : S8192x2048.Idx) :
    i ∈ ((cfg0.win 5).blk t).view.set ↔ ∀ a : Fin 2, win0_5.index t a * S256x2048.size a ≤ (i a).val
      ∧ (i a).val < win0_5.index t a * S256x2048.size a + S256x2048.size a := by
  show i ∈ ((View.whole main_v2_1).slice (win0_5.rect t)).set ↔ _
  rw [View.set_slice_whole, Rect.mem_set_unit]
  exact Iff.rfl

/-- The same for the new-hidden array. -/
theorem mem_blk_hidden (t : Fin cfg0.N) (i : S8192x2048.Idx) :
    i ∈ ((cfg0.win 4).blk t).view.set ↔ ∀ a : Fin 2, win0_4.index t a * S256x2048.size a ≤ (i a).val
      ∧ (i a).val < win0_4.index t a * S256x2048.size a + S256x2048.size a := by
  show i ∈ ((View.whole main_v2_0).slice (win0_4.rect t)).set ↔ _
  rw [View.set_slice_whole, Rect.mem_set_unit]
  exact Iff.rfl

/-- Every index of the new-cell array is in the block of the point whose band holds its row. -/
theorem cover_cell (i : S8192x2048.Idx) :
    ∃ t : Fin cfg0.N, (cfg0.win 5).flush t = true ∧ i ∈ ((cfg0.win 5).blk t).view.set := by
  have hi0 : (i 0).val < 8192 := (i 0).isLt
  have hi1 : (i 1).val < 2048 := (i 1).isLt
  obtain ⟨t, ht⟩ := idx_onto ⟨(i 0).val / 256, by omega⟩
  have q0 : win0_5.index t (0 : Fin 2) = (i 0).val / 256 := congrFun ht 0
  have q1 : win0_5.index t (1 : Fin 2) = 0 := congrFun ht 1
  refine ⟨t, flush0_5 t, ?_⟩
  rw [mem_blk_cell]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 2048 ≤ (i 1).val ∧ (i 1).val < win0_5.index t (1 : Fin 2) * 2048 + 2048; omega

/-- Every index of the new-hidden array is in the block of the point whose band holds its row. -/
theorem cover_hidden (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  obtain ⟨t, ht⟩ := idx_onto ⟨(i 0).val / 256, by omega⟩
  have q0 : win0_5.index t (0 : Fin 2) = (i 0).val / 256 := congrFun ht 0
  obtain ⟨e00, e01, e10, e11, e20, e21, e30, e31, e40, e41, e51, _⟩ := idx_facts t
  refine ⟨t, flush0_4 t, ?_⟩
  rw [mem_blk_hidden]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 2048 ≤ (i 1).val ∧ (i 1).val < win0_4.index t (1 : Fin 2) * 2048 + 2048; omega

/-! ## The arrays after the run -/

/-- The new-cell array after the run is the new cell state. -/
theorem final_cell (c : Dev nD) : (dats m 0 c).arrAt 5 cfg0.N = cellOf m c :=
  (dats m 0 c).arrAt_eq_of_cover 5 (cellOf m c) (fun t _ => flushed_cell m c t) cover_cell

/-- The new-hidden array after the run is the new hidden state. -/
theorem final_hidden (c : Dev nD) : (dats m 0 c).arrAt 4 cfg0.N = hiddenOf m c :=
  (dats m 0 c).arrAt_eq_of_cover 4 (hiddenOf m c) (fun t _ => flushed_hidden m c t) cover_hidden

/-- The kernel's run: every weakly fair execution terminates with the first result at the new hidden state and the
    second at the new cell state of the arguments, the arguments unchanged. -/
theorem run : θ_run defs (onTc (τ := τ) (main (F := Ideal))) ⟨m, fun _ => 0, ρ⟩ fun r => ∀ c : Dev nD,
      r.2.mem ((c : Thread nD τ).loc main_v2_0) = hiddenOf m c
      ∧ r.2.mem ((c : Thread nD τ).loc main_v2_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_hidden m c), (h c).2.1.trans (final_cell m c), (h c).2.2⟩)
    (Value.run_blocks m ρ)

end Cert.KernelIdeal.CellValue

end
-- ==== Proof.RefIsSpec.lean ====
/-
  The reference program's two results are the LSTM cell step of the specification, index by index.

  The reference forms the pre-activations as one matrix product plus the bias broadcast over the rows, cuts the four
  bands of 2048 columns out of it, applies the logistic function to each band spelled out as
  `1 / (1 + exp (-z))`, and combines them.  Read at an index, each stage is the specification's expression: the
  matrix product's entry is the sum over the contracted coordinate, a band's entry is the pre-activation at the band's
  column, and the spelled-out quotient is the logistic function.
-/
import proofs.«135184_j21818433864264_2_alg».proof.Proof.Gen.ReferenceIdeal.Read
import proofs.«135184_j21818433864264_2_alg».proof.Proof.LstmSpec

noncomputable section

open scoped BigOperators

namespace Cert.ReferenceIdeal.RefValue

open Cert.ReferenceIdeal Cert.ReferenceIdeal.Read Cert.LstmSpec
open Idealize.ShloMosaic Idealize.ShloMosaic.ValueIdx

variable (x0 x2 : (⟨S8192x2048, .f32⟩ : BufTy).Contents (Elt Ideal)) (x3 : (⟨S2048x8192, .f32⟩ : BufTy).Contents (Elt Ideal))
  (x4 : (⟨S8192, .f32⟩ : BufTy).Contents (Elt Ideal))

/-- The matrix product plus the broadcast bias, at `(r, j)`, is the pre-activation of gate column `j` at row `r`. -/
theorem gates_apply (i : S8192x8192.Idx) :
    val_main_v3 (F := Ideal) x0 x3 x4 i = pre x0 x3 x4 (i 0) (i 1) := by
  have el : ∀ k, lidx_main_v0 i k = ix2 (i 0) k := fun k => funext fun a => by
    match a with
    | ⟨0, _⟩ => rfl
    | ⟨1, _⟩ => rfl
  have er : ∀ k, ridx_main_v0 i k = ix2 k (i 1) := fun k => funext fun a => by
    match a with
    | ⟨0, _⟩ => rfl
    | ⟨1, _⟩ => rfl
  have eb : idx_main_v1 (idx_main_v2 i) = ix1 (i 1) := funext fun a => by
    match a with
    | ⟨0, _⟩ => rfl
  rw [val_main_v3_apply, val_main_v0_apply, val_main_v2_apply, val_main_v1_apply]
  simp only [el, er, eb]
  rfl

/-- The forget band's logistic stage. -/
theorem sigF_apply (i : S8192x2048.Idx) :
    val_main_v13 (F := Ideal) x0 x3 x4 i = Ideal.logistic (pre x0 x3 x4 (i 0) (colF (i 1))) := by
  rw [val_main_v13_apply, val_main_v12_apply, val_main_cst_0_apply, val_main_v11_apply, val_main_v10_apply,
    val_main_cst_apply, val_main_v9_apply, val_main_v8_apply, val_main_v4_apply, gates_apply]
  exact logistic_spelled _

/-- The input band's logistic stage. -/
theorem sigI_apply (i : S8192x2048.Idx) :
    val_main_v19 (F := Ideal) x0 x3 x4 i = Ideal.logistic (pre x0 x3 x4 (i 0) (colI (i 1))) := by
  rw [val_main_v19_apply, val_main_v18_apply, val_main_cst_2_apply, val_main_v17_apply, val_main_v16_apply,
    val_main_cst_1_apply, val_main_v15_apply, val_main_v14_apply, val_main_v5_apply, gates_apply]
  exact logistic_spelled _

/-- The output band's logistic stage. -/
theorem sigO_apply (i : S8192x2048.Idx) :
    val_main_v25 (F := Ideal) x0 x3 x4 i = Ideal.logistic (pre x0 x3 x4 (i 0) (colO (i 1))) := by
  rw [val_main_v25_apply, val_main_v24_apply, val_main_cst_4_apply, val_main_v23_apply, val_main_v22_apply,
    val_main_cst_3_apply, val_main_v21_apply, val_main_v20_apply, val_main_v6_apply, gates_apply]
  exact logistic_spelled _

/-- The state band's logistic stage. -/
theorem sigS_apply (i : S8192x2048.Idx) :
    val_main_v31 (F := Ideal) x0 x3 x4 i = Ideal.logistic (pre x0 x3 x4 (i 0) (colS (i 1))) := by
  rw [val_main_v31_apply, val_main_v30_apply, val_main_cst_6_apply, val_main_v29_apply, val_main_v28_apply,
    val_main_cst_5_apply, val_main_v27_apply, val_main_v26_apply, val_main_v7_apply, gates_apply]
  exact logistic_spelled _

/-- The reference's second result is the new cell state. -/
theorem cell_eq : val_main_v34 (F := Ideal) x0 x2 x3 x4 = newCell x0 x2 x3 x4 := by
  funext i
  rw [val_main_v34_apply, val_main_v32_apply, val_main_v33_apply, sigF_apply, sigI_apply, sigS_apply]
  rfl

/-- The reference's first result is the new hidden state. -/
theorem hidden_eq : val_main_v36 (F := Ideal) x0 x2 x3 x4 = newHidden x0 x2 x3 x4 := by
  funext i
  rw [val_main_v36_apply, val_main_v35_apply, sigO_apply, cell_eq]
  rfl

end Cert.ReferenceIdeal.RefValue

end
-- ==== Proof.lean ====
/-
  The certificate of a fused LSTM cell step: one Pallas kernel over 32 bands of 256 batch rows against a plain jnp
  reference, equal on the extended reals.

  Both programs compute, at batch row `r` and feature `q`,

    newCell   = σ (pre r q) * cell (r, q) + σ (pre r (2048 + q)) * σ (pre r (6144 + q))
    newHidden = σ (pre r (4096 + q)) * tanh newCell

  with `pre r j = (∑ k, input (r, k) * W (k, j)) + b j` and `σ` the logistic function.  The kernel feeds the matrix
  product in a narrower float format, which changes nothing on the extended reals; it applies the logistic function as
  one operation where the reference spells it `1 / (1 + exp (-z))`, which is its definition there; its matrix product
  accumulates into zero where the reference's has no accumulator.  No law that needs finite entries is used: the two
  sides are the same expression, operation by operation, so the precondition is never opened.

  The three frames are the generated frame runs (the reference's its generated run with the results dropped); the
  idealization rewrote nothing, so `preserves` is trivial; `algebraic` sets the kernel's run (each result array named
  by the specification's function, Proof/KernelBlocks.lean) beside the reference's (Proof/RefIsSpec.lean) on
  arguments that agree.
-/
import proofs.«135184_j21818433864264_2_alg».proof.Defs
import proofs.«135184_j21818433864264_2_alg».proof.Proof.Gen.Kernel
import proofs.«135184_j21818433864264_2_alg».proof.Proof.Gen.Kernel.Skeleton
import proofs.«135184_j21818433864264_2_alg».proof.Proof.Gen.Kernel.Launch
import proofs.«135184_j21818433864264_2_alg».proof.Proof.Gen.Kernel.Points
import proofs.«135184_j21818433864264_2_alg».proof.Proof.Gen.Kernel.Frame
import proofs.«135184_j21818433864264_2_alg».proof.Proof.Gen.KernelIdeal
import proofs.«135184_j21818433864264_2_alg».proof.Proof.Gen.KernelIdeal.Skeleton
import proofs.«135184_j21818433864264_2_alg».proof.Proof.Gen.KernelIdeal.Launch
import proofs.«135184_j21818433864264_2_alg».proof.Proof.Gen.KernelIdeal.Points
import proofs.«135184_j21818433864264_2_alg».proof.Proof.Gen.KernelIdeal.Frame
import proofs.«135184_j21818433864264_2_alg».proof.Proof.Gen.ReferenceIdeal
import proofs.«135184_j21818433864264_2_alg».proof.Proof.Gen.Pre_finite_inputs
import proofs.«135184_j21818433864264_2_alg».proof.Proof.Gen.KernelIdeal.Value
import proofs.«135184_j21818433864264_2_alg».proof.Proof.Gen.ReferenceIdeal.Run
import proofs.«135184_j21818433864264_2_alg».proof.Proof.Gen.ReferenceIdeal.Read
import proofs.«135184_j21818433864264_2_alg».proof.Proof.KernelBlocks
import proofs.«135184_j21818433864264_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From arguments that agree, the kernel's results are the new hidden and new cell state of its arguments, and the
    reference's are those of its own: the same arrays. -/
theorem algebraic : Cert.algebraic_KernelIdeal_ReferenceIdeal := by
  intro m ρ m' ρ' _ hagree
  refine ⟨fun c => Cert.KernelIdeal.CellValue.hiddenOf m c, fun c => Cert.KernelIdeal.CellValue.cellOf m c,
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v36_eq, Cert.ReferenceIdeal.RefValue.hidden_eq,
      (hagree c).1, (hagree c).2.2.1, (hagree c).2.2.2.1, (hagree c).2.2.2.2]
  · rw [Cert.ReferenceIdeal.Read.val_main_v34_eq, Cert.ReferenceIdeal.RefValue.cell_eq,
      (hagree c).1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
